-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S1024x1024 .f32) (main_arg2 : FVec F S1024x1024 .f32) (main_arg3 : FVec F S1024x1024 .f32) (main_arg4 : FVec F S1024 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8x1x1024 : Shape := ⟨3, ![8, 1, 1024]⟩
abbrev S8x2047x1024 : Shape := ⟨3, ![8, 2047, 1024]⟩
abbrev S8x1024 : Shape := ⟨2, ![8, 1024]⟩
abbrev S1x512x1024 : Shape := ⟨3, ![1, 512, 1024]⟩
abbrev S512x1024 : Shape := ⟨2, ![512, 1024]⟩

abbrev nBuf : Space → Nat
  | .hbm => 21
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S_, .f32⟩
  | .hbm, ⟨15, _⟩ => ⟨S8x1x1024, .f32⟩
  | .hbm, ⟨16, _⟩ => ⟨S8x2047x1024, .f32⟩
  | .hbm, ⟨17, _⟩ => ⟨S8x2048x1024, .f32⟩
  | .hbm, ⟨18, _⟩ => ⟨S8x1x1024, .f32⟩
  | .hbm, ⟨19, _⟩ => ⟨S8x1024, .f32⟩
  | .hbm, ⟨20, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S1024_S1x1024 : S1024.ShapeCasts S1x1024
  transposes_S1024x1024_S1024x1024_1_0 : S1024x1024.Transposes [1, 0] S1024x1024
  bitsLt_bf16_f32 : FTy.bits .bf16 < FTy.bits .f32
  bcast_S_S8x1x1024 : S_.BroadcastsInDim S8x1x1024 (![] : Fin 0 → Fin S8x1x1024.rank)
  slices_S8x2048x1024_S8x2047x1024_0_0_0 : S8x2048x1024.Slices ![0, 0, 0] S8x2047x1024
  concatenates_S8x1x1024_S8x2047x1024_S8x2048x1024_d1 : Shape.Concatenates [S8x1x1024, S8x2047x1024] S8x2048x1024 1
  slices_S8x2048x1024_S8x1x1024_0_2047_0 : S8x2048x1024.Slices ![0, 2047, 0] S8x1x1024
  shapeCasts_S8x1x1024_S8x1024 : S8x1x1024.ShapeCasts S8x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S8x2048x1024.size a
  hwx0_7 : ∀ i : grid0.Coords, EltTy.bits .f32 = 32 ∨ (Rect.block (s := S8x2048x1024) S1x512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x1x1024 : Shape := ⟨3, ![8, 1, 1024]⟩
abbrev S8x2047x1024 : Shape := ⟨3, ![8, 2047, 1024]⟩
abbrev S1x1x1024 : Shape := ⟨3, ![1, 1, 1024]⟩
abbrev S8x1024 : Shape := ⟨2, ![8, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8x1x1024, .f32⟩
  | .hbm, ⟨8, _⟩ => ⟨S8x2047x1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x1x1024, .f32⟩
  | .hbm, ⟨47, _⟩ => ⟨S8x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S_S8x1x1024 : S_.BroadcastsInDim S8x1x1024 (![] : Fin 0 → Fin S8x1x1024.rank)
  slices_S8x2048x1024_S8x2047x1024_0_0_0 : S8x2048x1024.Slices ![0, 0, 0] S8x2047x1024
  concatenates_S8x1x1024_S8x2047x1024_S8x2048x1024_d1 : Shape.Concatenates [S8x1x1024, S8x2047x1024] S8x2048x1024 1
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S1024 : S_.BroadcastsInDim S1024 (![] : Fin 0 → Fin S1024.rank)
  bcast_S_S8x2048x1024 : S_.BroadcastsInDim S8x2048x1024 (![] : Fin 0 → Fin S8x2048x1024.rank)
  slices_S8x2048x1024_S8x1x1024_0_2047_0 : S8x2048x1024.Slices ![0, 2047, 0] S8x1x1024
  shapeCasts_S8x1x1024_S8x1024 : S8x1x1024.ShapeCasts S8x1024
  dot_S8x2048x1024_S1024x1024_S8x2048x1024_2_1_01_0_n_n_wf : DotDims.WF S8x2048x1024 S1024x1024 S8x2048x1024 [2] [1] [0, 1] [0] [] []

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf

class Facts : Prop extends Facts₀ where

variable [Facts]
-- ==== Proof.ChannelMix.lean ====
/-
  The channel-mix layer as ONE function of its six arguments, read index by index on the extended reals.

  Write p[b,t,c] for the PREVIOUS token's channel: x[b,t-1,c], and zero at t = 0 (no state is carried in).
  Each token is blended with its predecessor channel by channel, z = p + μ·(x − p), once with the weights μr
  and once with μk.  A linear layer keeps its matrix as (output channel, input channel), so it maps z to
  y[d] = Σ_c z[c]·W[d,c].  The receptance is the logistic function of the layer Wr on the first blend, the key
  the square of the rectified layer Wk on the second, and the result the receptance times the layer Wv on the key:

      out[b,t,d] = σ(Σ_c zr[b,t,c]·Wr[d,c]) · Σ_e (max(Σ_c zk[b,t,c]·Wk[e,c], 0))² · Wv[d,e].

  Also here, the one law of arithmetic the certificate needs: on REAL numbers the two spellings of the blend
  agree, μ·x + (1 − μ)·p = p + μ·(x − p).  It is a law of the reals only: at p = +∞ (with 0 < μ < 1) the left
  side is +∞ and the right side is +∞ + (−∞).  This is the one place where finiteness of the inputs is used.
-/
import Idealize.ShloMosaic.PureOps.Ideal
import Idealize.ShloMosaic.Lib.ValueIdx

noncomputable section

namespace Cert.ChannelMix

open Idealize.ShloMosaic Idealize.ShloMosaic.ValueIdx

/-- Tokens: batch × time × channel. -/
abbrev Tok : Shape := ⟨3, ![8, 2048, 1024]⟩
/-- A linear layer's matrix: output channel × input channel. -/
abbrev Mat : Shape := ⟨2, ![1024, 1024]⟩
/-- One blend weight per channel. -/
abbrev Chan : Shape := ⟨1, ![1024]⟩

/-- The word of +0.0: the rectifier's threshold and the predecessor of each first token. It is the same word on
    both sides of every equation below, so its value is never needed. -/
abbrev zeroW : EReal := Ideal.ofBits .f32 0x00000000#32
/-- The word of 1.0. -/
abbrev oneW : EReal := Ideal.ofBits .f32 0x3F800000#32

/-- The word of 1.0 denotes the number one: sign 0, biased exponent 127, fraction 0. -/
theorem oneW_eq : oneW = 1 := by
  simp [Ideal.ofBits, Ideal.ieee, -EReal.coe_mul]
  norm_num

/-! ## The predecessor of each token -/

/-- Every token's predecessor: the token before it in time, and the zero row before the first. -/
def shift (x : Tok.Idx → EReal) : Tok.Idx → EReal := fun i =>
  if h : (i 1).val = 0 then zeroW
  else x (ix3 (i 0) ⟨(i 1).val - 1, by have h1 : (i 1).val < 2048 := (i 1).isLt; omega⟩ (i 2))

/-- If every entry of x is a real number, so is every entry of its shift (zero is a real number). -/
theorem shift_real (x : Tok.Idx → EReal) (hx : ∀ i, ∃ r : ℝ, x i = r) (i : Tok.Idx) : ∃ r : ℝ, shift x i = r := by
  unfold shift
  split
  · exact ⟨0, by simp [Ideal.ofBits, Ideal.ieee]⟩
  · exact hx _

/-! ## The layer -/

/-- Channel c of token (b, t) blended with its predecessor's: p + μ·(x − p). -/
def blend (μ : Chan.Idx → EReal) (x p : Tok.Idx → EReal) (b : Fin 8) (t : Fin 2048) (c : Fin 1024) : EReal :=
  p (ix3 b t c) + μ (ix1 c) * (x (ix3 b t c) - p (ix3 b t c))

/-- Output channel d of a linear layer W on the blended token (b, t): Σ_c z[c]·W[d,c]. -/
def layer (μ : Chan.Idx → EReal) (x p : Tok.Idx → EReal) (W : Mat.Idx → EReal) (b : Fin 8) (t : Fin 2048)
    (d : Fin 1024) : EReal :=
  ∑ c : Fin 1024, blend μ x p b t c * W (ix2 d c)

/-- The key: the rectified layer's output, squared. -/
def key (μ : Chan.Idx → EReal) (x p : Tok.Idx → EReal) (W : Mat.Idx → EReal) (b : Fin 8) (t : Fin 2048)
    (e : Fin 1024) : EReal :=
  max (layer μ x p W b t e) zeroW * max (layer μ x p W b t e) zeroW

/-- The layer's result with the predecessor array given: receptance times the value layer on the key. -/
def outWith (x p : Tok.Idx → EReal) (Wr Wk Wv : Mat.Idx → EReal) (μr μk : Chan.Idx → EReal) : Tok.Idx → EReal :=
  fun i => Ideal.logistic (layer μr x p Wr (i 0) (i 1) (i 2))
    * ∑ e : Fin 1024, key μk x p Wk (i 0) (i 1) e * Wv (ix2 (i 2) e)

/-- The result at the index (b, t, d). -/
theorem outWith_apply (x p : Tok.Idx → EReal) (Wr Wk Wv : Mat.Idx → EReal) (μr μk : Chan.Idx → EReal)
    (b : Fin 8) (t : Fin 2048) (d : Fin 1024) :
    outWith x p Wr Wk Wv μr μk (ix3 b t d)
      = Ideal.logistic (layer μr x p Wr b t d) * ∑ e : Fin 1024, key μk x p Wk b t e * Wv (ix2 d e) := rfl

/-- THE SPECIFICATION: the layer's result as a function of its six arguments. -/
def out (x : Tok.Idx → EReal) (Wr Wk Wv : Mat.Idx → EReal) (μr μk : Chan.Idx → EReal) : Tok.Idx → EReal :=
  outWith x (shift x) Wr Wk Wv μr μk

/-! ## The two spellings of the blend -/

/-- On real numbers, μ·x + (1 − μ)·p = p + μ·(x − p), the one written with the word of 1.0. -/
theorem blend_law (μ x p : ℝ) : (μ : EReal) * x + (oneW - μ) * p = (p : EReal) + μ * ((x : EReal) - p) := by
  rw [oneW_eq]
  have e : ((μ * x + (1 - μ) * p : ℝ) : EReal) = ((p + μ * (x - p) : ℝ) : EReal) := congrArg _ (by ring)
  exact_mod_cast e

/-- The same at three extended reals known to be real numbers. -/
theorem blend_law' {μ x p : EReal} (hμ : ∃ r : ℝ, μ = r) (hx : ∃ r : ℝ, x = r) (hp : ∃ r : ℝ, p = r) :
    μ * x + (oneW - μ) * p = p + μ * (x - p) := by
  obtain ⟨a, rfl⟩ := hμ; obtain ⟨b, rfl⟩ := hx; obtain ⟨c, rfl⟩ := hp
  exact blend_law a b c

end Cert.ChannelMix

end
-- ==== Proof.ShiftConcat.lean ====
/-
  The token shift as both programs compute it: the zero row [8, 1, 1024] followed, along the time axis, by the
  first 2047 tokens of x.  Read at an index this is the predecessor array of the specification: at time 0 the
  index falls in the first piece, which holds the zero word everywhere; at time t ≥ 1 it falls in the second piece
  at time t − 1, which is x at time t − 1.  Stated for any proofs of the operations' side conditions, so the one
  lemma reads the concatenation in either program.
-/
import proofs.«179300_j63144609185889_2_alg».proof.Proof.ChannelMix
import Idealize.ShloMosaic.Lib.Pipeline.Value
import Idealize.ShloMosaic.Lib.ValueLayout

noncomputable section

namespace Cert.ChannelMix

open Idealize.ShloMosaic Idealize.ShloMosaic.ValueIdx

/-- The zero row put before the first token. -/
abbrev Row0 : Shape := ⟨3, ![8, 1, 1024]⟩
/-- All tokens but the last. -/
abbrev Init : Shape := ⟨3, ![8, 2047, 1024]⟩
/-- A scalar. -/
abbrev Sc : Shape := ⟨0, ![]⟩

/-- The zero row followed by all tokens of x but the last is the predecessor array of x. -/
theorem concat_eq_shift (x : Tok.Idx → EReal)
    (hb : Sc.BroadcastsInDim Row0 (![] : Fin 0 → Fin Row0.rank)) (hs : Tok.Slices ![0, 0, 0] Init)
    (hc : Shape.Concatenates [Row0, Init] Tok 1) :
    concatenate Tok 1 [⟨Row0, broadcastInDim Row0 ![] hb (constant (F := Ideal) Sc .f32 0x00000000#32)⟩,
      ⟨Init, extractStridedSlice Init ![0, 0, 0] x hs⟩] hc = shift x := by
  funext j
  have h1 : (j 1).val < 2048 := (j 1).isLt
  unfold shift
  split
  · rename_i h0
    refine (concatenate_pair_apply_left (1 : Fin Tok.rank) _ _ hc j rfl (ix3 (j 0) (0 : Fin 1) (j 2)) ?_).trans ?_
    · intro b
      match b with
      | ⟨0, _⟩ => rfl
      | ⟨1, _⟩ => exact h0.symm
      | ⟨2, _⟩ => rfl
    · exact broadcastInDim_apply _ hb _ _ (fun a => a.elim0) (fun a => a.elim0)
  · rename_i h0
    refine (concatenate_pair_apply_right (1 : Fin Tok.rank) _ _ hc j rfl rfl
      (ix3 (j 0) (⟨(j 1).val - 1, by omega⟩ : Fin 2047) (j 2)) ?_ ?_).trans ?_
    · intro b hb1
      match b with
      | ⟨0, _⟩ => rfl
      | ⟨1, _⟩ => exact absurd rfl hb1
      | ⟨2, _⟩ => rfl
    · show (j 1).val - 1 + 1 = (j 1).val
      omega
    · exact slice3_axis1_apply 0 x hs (j 0) _ (j 2) _ (by show (j 1).val - 1 = 0 + ((j 1).val - 1); omega)

end Cert.ChannelMix

end
-- ==== Proof.RefValue.lean ====
/-
  The reference computes the specification.  Its stages are read index by index: each blend is spelt
  μ·x + (1 − μ)·p over broadcast weights, which for real entries is p + μ·(x − p) (the blend law; the entries are
  real because the inputs are finite and the predecessor array holds entries of x and zeros); each linear layer is
  a contraction over the input channel, Σ_c z[b,t,c]·W[d,c]; the logistic function is spelt 1/(1 + e^(−y)),
  which is the logistic function on the extended reals by definition; the rectifier is the maximum with the
  zero word, and the square a product.
-/
import proofs.«179300_j63144609185889_2_alg».proof.Proof.Gen.ReferenceIdeal.Read
import proofs.«179300_j63144609185889_2_alg».proof.Proof.ChannelMix
import proofs.«179300_j63144609185889_2_alg».proof.Proof.ShiftConcat

noncomputable section

namespace Cert.ReferenceIdeal.RefValue

open Cert.ReferenceIdeal Cert.ReferenceIdeal.Read Cert.ChannelMix Idealize.ShloMosaic Idealize.ShloMosaic.ValueIdx

variable (x : Tok.Idx → EReal) (Wr Wk Wv : Mat.Idx → EReal) (μr μk : Chan.Idx → EReal)

/-- The reference's concatenation of the zero row and all tokens but the last is the predecessor array. -/
theorem prev_eq : val_main_v2 (F := Ideal) x = shift x := by
  unfold val_main_v2 val_main_v1 val_main_v0 val_main_cst
  exact concat_eq_shift x _ _ _

/-- Each contraction at the output index (b, t, d) reads the left operand at (b, t, k) and the matrix at (d, k). -/
theorem lidx21 (b : Fin 8) (t : Fin 2048) (d k : Fin 1024) : lidx_main_v21 (ix3 b t d) k = ix3 b t k :=
  funext fun a => by match a with | ⟨0, _⟩ => rfl | ⟨1, _⟩ => rfl | ⟨2, _⟩ => rfl
theorem ridx21 (b : Fin 8) (t : Fin 2048) (d k : Fin 1024) : ridx_main_v21 (ix3 b t d) k = ix2 d k :=
  funext fun a => by match a with | ⟨0, _⟩ => rfl | ⟨1, _⟩ => rfl
theorem lidx28 (b : Fin 8) (t : Fin 2048) (d k : Fin 1024) : lidx_main_v28 (ix3 b t d) k = ix3 b t k :=
  funext fun a => by match a with | ⟨0, _⟩ => rfl | ⟨1, _⟩ => rfl | ⟨2, _⟩ => rfl
theorem ridx28 (b : Fin 8) (t : Fin 2048) (d k : Fin 1024) : ridx_main_v28 (ix3 b t d) k = ix2 d k :=
  funext fun a => by match a with | ⟨0, _⟩ => rfl | ⟨1, _⟩ => rfl
theorem lidx31 (b : Fin 8) (t : Fin 2048) (d k : Fin 1024) : lidx_main_v31 (ix3 b t d) k = ix3 b t k :=
  funext fun a => by match a with | ⟨0, _⟩ => rfl | ⟨1, _⟩ => rfl | ⟨2, _⟩ => rfl
theorem ridx31 (b : Fin 8) (t : Fin 2048) (d k : Fin 1024) : ridx_main_v31 (ix3 b t d) k = ix2 d k :=
  funext fun a => by match a with | ⟨0, _⟩ => rfl | ⟨1, _⟩ => rfl

section finite

/-- The first blend, weights μr, at (b, t, c). -/
theorem blend_r (hx : ∀ i, ∃ r : ℝ, x i = r) (hμ : ∀ i, ∃ r : ℝ, μr i = r) (b : Fin 8) (t : Fin 2048) (c : Fin 1024) :
    val_main_v11 (F := Ideal) x μr (ix3 b t c) = blend μr x (shift x) b t c := by
  rw [val_main_v11_apply, val_main_v5_apply, val_main_v10_apply, val_main_v4_apply, val_main_v3_apply,
    val_main_v9_apply, val_main_v8_apply, val_main_v7_apply, val_main_v6_apply, val_main_cst_0_apply, prev_eq]
  have e : idx_main_v3 (idx_main_v4 (ix3 b t c)) = ix1 c := funext fun a => by match a with | ⟨0, _⟩ => rfl
  have e' : idx_main_v8 (idx_main_v9 (ix3 b t c)) = ix1 c := funext fun a => by match a with | ⟨0, _⟩ => rfl
  rw [e, e']
  exact blend_law' (hμ _) (hx _) (shift_real x hx _)

/-- The second blend, weights μk, at (b, t, c). -/
theorem blend_k (hx : ∀ i, ∃ r : ℝ, x i = r) (hμ : ∀ i, ∃ r : ℝ, μk i = r) (b : Fin 8) (t : Fin 2048) (c : Fin 1024) :
    val_main_v20 (F := Ideal) x μk (ix3 b t c) = blend μk x (shift x) b t c := by
  rw [val_main_v20_apply, val_main_v14_apply, val_main_v19_apply, val_main_v13_apply, val_main_v12_apply,
    val_main_v18_apply, val_main_v17_apply, val_main_v16_apply, val_main_v15_apply, val_main_cst_1_apply, prev_eq]
  have e : idx_main_v12 (idx_main_v13 (ix3 b t c)) = ix1 c := funext fun a => by match a with | ⟨0, _⟩ => rfl
  have e' : idx_main_v17 (idx_main_v18 (ix3 b t c)) = ix1 c := funext fun a => by match a with | ⟨0, _⟩ => rfl
  rw [e, e']
  exact blend_law' (hμ _) (hx _) (shift_real x hx _)

/-- The receptance layer's output at (b, t, d). -/
theorem layer_r (hx : ∀ i, ∃ r : ℝ, x i = r) (hμ : ∀ i, ∃ r : ℝ, μr i = r) (b : Fin 8) (t : Fin 2048) (d : Fin 1024) :
    val_main_v21 (F := Ideal) x Wr μr (ix3 b t d) = layer μr x (shift x) Wr b t d := by
  rw [val_main_v21_apply]
  unfold layer
  refine Finset.sum_congr rfl fun k _ => ?_
  rw [lidx21, ridx21, blend_r x μr hx hμ]

/-- The key layer's output at (b, t, e). -/
theorem layer_k (hx : ∀ i, ∃ r : ℝ, x i = r) (hμ : ∀ i, ∃ r : ℝ, μk i = r) (b : Fin 8) (t : Fin 2048) (e : Fin 1024) :
    val_main_v28 (F := Ideal) x Wk μk (ix3 b t e) = layer μk x (shift x) Wk b t e := by
  rw [val_main_v28_apply]
  unfold layer
  refine Finset.sum_congr rfl fun k _ => ?_
  rw [lidx28, ridx28, blend_k x μk hx hμ]

/-- The key at (b, t, e): the rectified layer's output, squared. -/
theorem key_at (hx : ∀ i, ∃ r : ℝ, x i = r) (hμ : ∀ i, ∃ r : ℝ, μk i = r) (b : Fin 8) (t : Fin 2048) (e : Fin 1024) :
    val_main_v30 (F := Ideal) x Wk μk (ix3 b t e) = key μk x (shift x) Wk b t e := by
  rw [val_main_v30_apply, val_main_v29_apply, layer_k x Wk μk hx hμ, val_main_call0_v0_apply, val_main_call0_cst_apply]
  rfl

/-- The receptance at (b, t, d): 1/(1 + e^(−y)) of the layer's output y is the logistic function of y. -/
theorem gate_at (hx : ∀ i, ∃ r : ℝ, x i = r) (hμ : ∀ i, ∃ r : ℝ, μr i = r) (b : Fin 8) (t : Fin 2048) (d : Fin 1024) :
    val_main_v27 (F := Ideal) x Wr μr (ix3 b t d) = Ideal.logistic (layer μr x (shift x) Wr b t d) := by
  rw [val_main_v27_apply, val_main_v26_apply, val_main_cst_3_apply, val_main_v25_apply, val_main_v24_apply,
    val_main_cst_2_apply, val_main_v23_apply, val_main_v22_apply, layer_r x Wr μr hx hμ]
  show Ideal.div oneW (oneW + Ideal.exp (-(layer μr x (shift x) Wr b t d))) = _
  rw [oneW_eq]
  rfl

/-- THE REFERENCE'S RESULT is the specification, for finite x, μr and μk. -/
theorem result_eq (hx : ∀ i, ∃ r : ℝ, x i = r) (hr : ∀ i, ∃ r : ℝ, μr i = r) (hk : ∀ i, ∃ r : ℝ, μk i = r) :
    val_main_v32 (F := Ideal) x Wr Wk Wv μr μk = out x Wr Wk Wv μr μk := by
  funext i
  obtain ⟨b, t, d, rfl⟩ : ∃ (b : Fin 8) (t : Fin 2048) (d : Fin 1024), i = ix3 b t d := ⟨i 0, i 1, i 2, eq_ix3 i⟩
  rw [val_main_v32_apply, gate_at x Wr μr hx hr, val_main_v31_apply]
  unfold out
  rw [outWith_apply]
  refine congrArg (Ideal.logistic _ * ·) (Finset.sum_congr rfl fun k _ => ?_)
  rw [lidx31, ridx31, key_at x Wk μk hx hk]

end finite

end Cert.ReferenceIdeal.RefValue

end
-- ==== Proof.BlockValue.lean ====
/-
  What the kernel body computes for one block of 512 tokens, read at an index.

  The body loads the tokens' block x0 and the predecessors' block x1 (both [1, 512, 1024]), the two weight rows
  m4, m6 ([1, 1024]) and the three matrices w17, w19, w21 ([1024, 1024], already transposed to
  (input channel, output channel)).  Row r of the block is blended channel by channel, x1 + m·(x0 − x1), with the
  weight row spread over the 512 rows; each product with a matrix into a zero accumulator is the plain sum
  Σ_k lhs[r,k]·rhs[k,d]; rounding to a narrower float format is the identity on the extended reals.  So entry
  (r, d) of the stored block is

      σ(Σ_c zr[r,c]·w17[c,d]) · Σ_e (max(Σ_c zk[r,c]·w19[c,e], 0))² · w21[e,d].
-/
import proofs.«179300_j63144609185889_2_alg».proof.Proof.Gen.KernelIdeal.Skeleton
import proofs.«179300_j63144609185889_2_alg».proof.Proof.ChannelMix
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Cert.ChannelMix Idealize.ShloMosaic Idealize.ShloMosaic.ValueIdx

/-! ## The block-level function -/

/-- Channel c of row r of the block blended with its predecessor's. -/
def blkBlend (m : FVec Ideal S1x1024 .f32) (x0 x1 : FVec Ideal S1x512x1024 .f32) (r : Fin 512) (c : Fin 1024) : EReal :=
  x1 (ix3 (0 : Fin 1) r c) + m (ix2 (0 : Fin 1) c) * (x0 (ix3 (0 : Fin 1) r c) - x1 (ix3 (0 : Fin 1) r c))

/-- Output channel d of the (transposed) matrix w on the blended row r. -/
def blkLayer (m : FVec Ideal S1x1024 .f32) (x0 x1 : FVec Ideal S1x512x1024 .f32) (w : FVec Ideal S1024x1024 .bf16)
    (r : Fin 512) (d : Fin 1024) : EReal :=
  ∑ c : Fin 1024, blkBlend m x0 x1 r c * w (ix2 c d)

/-- The key of row r: the rectified layer's output, squared. -/
def blkKey (m : FVec Ideal S1x1024 .f32) (x0 x1 : FVec Ideal S1x512x1024 .f32) (w : FVec Ideal S1024x1024 .bf16)
    (r : Fin 512) (e : Fin 1024) : EReal :=
  max (blkLayer m x0 x1 w r e) zeroW * max (blkLayer m x0 x1 w r e) zeroW

/-- Entry (r, d) of the block the body stores. -/
def blkOut (x0 x1 : FVec Ideal S1x512x1024 .f32) (m4 m6 : FVec Ideal S1x1024 .f32)
    (w17 w19 w21 : FVec Ideal S1024x1024 .bf16) (r : Fin 512) (d : Fin 1024) : EReal :=
  Ideal.logistic (blkLayer m4 x0 x1 w17 r d) * ∑ e : Fin 1024, blkKey m6 x0 x1 w19 r e * w21 (ix2 e d)

/-! ## The operations read at an index -/

/-- The left operand of the body's matrix product is read at (r, k): axis 0 is a free axis, axis 1 the contracted one. -/
theorem lhs0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- The right operand is read at (k, d): axis 1 is a free axis, axis 0 the contracted one. -/
theorem rhs1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- A [512, 1024] × [1024, 1024] product into the zero accumulator, at (r, d), is Σ_k lhs[r,k]·rhs[k,d]. -/
theorem mm_apply {φ₁ φ₂ : FTy} (lhs : FVec Ideal S512x1024 φ₁) (rhs : FVec Ideal S1024x1024 φ₂) (r : Fin 512) (d : Fin 1024) :
    matmul dot_S512x1024_S1024x1024_S512x1024_1_0_0_1_n_n none lhs rhs (constant (F := Ideal) S512x1024 .f32 0x00000000#32) (ix2 r d)
      = ∑ k : Fin 1024, lhs (ix2 r k) * rhs (ix2 k d) := by
  simp only [matmul]
  rw [Ideal.matmul_constant_zero_apply,
    ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r d)
      ((ValueIdx.contrEquiv1 dot_S512x1024_S1024x1024_S512x1024_1_0_0_1_n_n 1024 rfl rfl).symm k) = ix2 r k :=
    funext fun a => Fin.ext (by
      match a with
      | ⟨0, _⟩ => exact lhs0 _ _
      | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r d)
      ((ValueIdx.contrEquiv1 dot_S512x1024_S1024x1024_S512x1024_1_0_0_1_n_n 1024 rfl rfl).symm k) = ix2 k d :=
    funext fun a => Fin.ext (by
      match a with
      | ⟨0, _⟩ => exact (dot_S512x1024_S1024x1024_S512x1024_1_0_0_1_n_n.rhsIdx_val_of_single rfl _ _).trans hk
      | ⟨1, _⟩ => exact rhs1 _ _)
  rw [el, er]

/-- The blend as the body spells it — the leading unit axis of both blocks dropped, the weight row spread over the rows,
    the result rounded to the narrower format — at (r, c). -/
theorem blend_apply (x0 x1 : FVec Ideal S1x512x1024 .f32) (m : FVec Ideal S1x1024 .f32) (r : Fin 512) (c : Fin 1024) :
    (truncf .bf16 (addf (shapeCast S512x1024 x1 shapeCasts_S1x512x1024_S512x1024)
        (mulf (broadcastTo S512x1024 (shapeCast S1x1024 m shapeCasts_S1x1024_S1x1024) broadcasts_S1x1024_S512x1024)
          (subf (shapeCast S512x1024 x0 shapeCasts_S1x512x1024_S512x1024) (shapeCast S512x1024 x1 shapeCasts_S1x512x1024_S512x1024))))
      bitsLt_bf16_f32 : FVec Ideal S512x1024 .bf16) (ix2 r c) = blkBlend m x0 x1 r c := by
  show shapeCast S512x1024 x1 shapeCasts_S1x512x1024_S512x1024 (ix2 r c)
      + broadcastTo S512x1024 (shapeCast S1x1024 m shapeCasts_S1x1024_S1x1024) broadcasts_S1x1024_S512x1024 (ix2 r c)
        * (shapeCast S512x1024 x0 shapeCasts_S1x512x1024_S512x1024 (ix2 r c)
            - shapeCast S512x1024 x1 shapeCasts_S1x512x1024_S512x1024 (ix2 r c)) = _
  rw [shapeCast_1ab_ab_apply, shapeCast_1ab_ab_apply, broadcastTo_1b_ab_apply, shapeCast_self]
  rfl

/-- THE PAYLOAD AT AN INDEX: entry (u, r, d) of what the body stores is the block-level function at (r, d). -/
theorem pay_apply (x0 x1 : FVec Ideal S1x512x1024 .f32) (m4 m6 : FVec Ideal S1x1024 .f32)
    (w17 w19 w21 : FVec Ideal S1024x1024 .bf16) (u : Fin 1) (r : Fin 512) (d : Fin 1024) :
    k0_pay1 (F := Ideal) x0 x1 m4 m6 w17 w19 w21 (ix3 u r d) = blkOut x0 x1 m4 m6 w17 w19 w21 r d := by
  unfold k0_pay1
  refine (shapeCast_ab_1ab_apply _ _ u r d).trans ?_
  have hr : ∀ e : Fin 1024, matmul dot_S512x1024_S1024x1024_S512x1024_1_0_0_1_n_n none
      (truncf .bf16 (addf (shapeCast S512x1024 x1 shapeCasts_S1x512x1024_S512x1024)
        (mulf (broadcastTo S512x1024 (shapeCast S1x1024 m4 shapeCasts_S1x1024_S1x1024) broadcasts_S1x1024_S512x1024)
          (subf (shapeCast S512x1024 x0 shapeCasts_S1x512x1024_S512x1024) (shapeCast S512x1024 x1 shapeCasts_S1x512x1024_S512x1024))))
        bitsLt_bf16_f32 : FVec Ideal S512x1024 .bf16)
      (shapeCast S1024x1024 w17 shapeCasts_S1024x1024_S1024x1024) (constant (F := Ideal) S512x1024 .f32 0x00000000#32) (ix2 r e)
      = blkLayer m4 x0 x1 w17 r e := fun e =>
    (mm_apply _ _ r e).trans (Finset.sum_congr rfl fun c _ => by rw [blend_apply, shapeCast_self])
  have hk : ∀ e : Fin 1024, matmul dot_S512x1024_S1024x1024_S512x1024_1_0_0_1_n_n none
      (truncf .bf16 (addf (shapeCast S512x1024 x1 shapeCasts_S1x512x1024_S512x1024)
        (mulf (broadcastTo S512x1024 (shapeCast S1x1024 m6 shapeCasts_S1x1024_S1x1024) broadcasts_S1x1024_S512x1024)
          (subf (shapeCast S512x1024 x0 shapeCasts_S1x512x1024_S512x1024) (shapeCast S512x1024 x1 shapeCasts_S1x512x1024_S512x1024))))
        bitsLt_bf16_f32 : FVec Ideal S512x1024 .bf16)
      (shapeCast S1024x1024 w19 shapeCasts_S1024x1024_S1024x1024) (constant (F := Ideal) S512x1024 .f32 0x00000000#32) (ix2 r e)
      = blkLayer m6 x0 x1 w19 r e := fun e =>
    (mm_apply _ _ r e).trans (Finset.sum_congr rfl fun c _ => by rw [blend_apply, shapeCast_self])
  unfold blkOut
  refine congrArg₂ (fun a b : EReal => Ideal.logistic a * b) (hr d) ?_
  refine (mm_apply _ _ r d).trans (Finset.sum_congr rfl fun e _ => ?_)
  refine congrArg₂ (fun a b : EReal => a * b) ?_ (congrFun (shapeCast_self w21 shapeCasts_S1024x1024_S1024x1024) (ix2 e d))
  unfold blkKey
  exact congrArg (fun k : EReal => max k zeroW * max k zeroW) (hk e)

/-! ## A block of the specification -/

/-- If the loaded blocks hold the arguments' entries for batch entry b and the 512 tokens at times τ r — the tokens
    and their predecessors at (b, τ r, c), the weight rows at c, each matrix transposed — then the block-level
    function at (r, d) is the specification at (b, τ r, d): the two sides are the same sums term by term. -/
theorem blkOut_eq_out (x0 x1 : FVec Ideal S1x512x1024 .f32) (m4 m6 : FVec Ideal S1x1024 .f32)
    (w17 w19 w21 : FVec Ideal S1024x1024 .bf16)
    (x : Tok.Idx → EReal) (Wr Wk Wv : Mat.Idx → EReal) (μr μk : Chan.Idx → EReal) (b : Fin 8) (τ : Fin 512 → Fin 2048)
    (h0 : ∀ r c, x0 (ix3 (0 : Fin 1) r c) = x (ix3 b (τ r) c))
    (h1 : ∀ r c, x1 (ix3 (0 : Fin 1) r c) = shift x (ix3 b (τ r) c))
    (h4 : ∀ c, m4 (ix2 (0 : Fin 1) c) = μr (ix1 c)) (h6 : ∀ c, m6 (ix2 (0 : Fin 1) c) = μk (ix1 c))
    (h17 : ∀ c d, w17 (ix2 c d) = Wr (ix2 d c)) (h19 : ∀ c d, w19 (ix2 c d) = Wk (ix2 d c))
    (h21 : ∀ c d, w21 (ix2 c d) = Wv (ix2 d c)) (r : Fin 512) (d : Fin 1024) :
    blkOut x0 x1 m4 m6 w17 w19 w21 r d = out x Wr Wk Wv μr μk (ix3 b (τ r) d) := by
  have hl : ∀ (m : FVec Ideal S1x1024 .f32) (μ : Chan.Idx → EReal) (w : FVec Ideal S1024x1024 .bf16) (W : Mat.Idx → EReal),
      (∀ c, m (ix2 (0 : Fin 1) c) = μ (ix1 c)) → (∀ c d, w (ix2 c d) = W (ix2 d c)) →
      ∀ e : Fin 1024, blkLayer m x0 x1 w r e = layer μ x (shift x) W b (τ r) e := by
    intro m μ w W hm hw e
    unfold blkLayer layer blkBlend blend
    exact Finset.sum_congr rfl fun c _ => by rw [h0, h1, hm, hw]
  unfold out
  rw [outWith_apply]
  unfold blkOut
  rw [hl m4 μr w17 Wr h4 h17 d]
  refine congrArg (Ideal.logistic _ * ·) (Finset.sum_congr rfl fun e _ => ?_)
  unfold blkKey key
  rw [hl m6 μk w19 Wk h6 h19 e, h21]

end Cert.KernelIdeal.BlockValue

end
-- ==== Proof.ArrayValue.lean ====
/-
  From the blocks to the whole result array.

  The call runs over a grid of 8 × 4 points.  Point (b, q) is handed the block of 512 tokens of batch entry b at
  times 512·q … 512·q + 511 of the token array and of the predecessor array, the two weight rows and the three
  matrices whole, and writes back the same block of the result.  The predecessor array, the weight rows as
  [1, 1024] and the matrices transposed are written by the operations before the call: the predecessor array is the
  shift of the tokens; a weight row at (0, c) is the weight at c; a transposed matrix at (c, d) is the matrix at (d, c).
  So every point writes the block of the specification at its place, the 32 blocks tile the array, and the result array
  ends as the specification.  The second result, the last token of each batch entry, is written before the call
  and left alone by it.
-/
import proofs.«179300_j63144609185889_2_alg».proof.Proof.Gen.KernelIdeal.Value
import proofs.«179300_j63144609185889_2_alg».proof.Proof.BlockValue
import proofs.«179300_j63144609185889_2_alg».proof.Proof.ShiftConcat
import Idealize.ShloMosaic.Lib.Pipeline.Value
import Idealize.ShloMosaic.Lib.StableHlo.Run
import Idealize.ShloMosaic.Lib.ValueLayout

noncomputable section

namespace Cert.KernelIdeal.ArrayValue

open Cert.KernelIdeal Cert.KernelIdeal.Gen Cert.KernelIdeal.Value Cert.KernelIdeal.BlockValue Cert.ChannelMix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The six arguments on a core -/

abbrev argX (c : Dev nD) : Tok.Idx → EReal := m ((c : Thread nD τ).loc main_arg0)
abbrev argWr (c : Dev nD) : Mat.Idx → EReal := m ((c : Thread nD τ).loc main_arg1)
abbrev argWk (c : Dev nD) : Mat.Idx → EReal := m ((c : Thread nD τ).loc main_arg2)
abbrev argWv (c : Dev nD) : Mat.Idx → EReal := m ((c : Thread nD τ).loc main_arg3)
abbrev argMr (c : Dev nD) : Chan.Idx → EReal := m ((c : Thread nD τ).loc main_arg4)
abbrev argMk (c : Dev nD) : Chan.Idx → EReal := m ((c : Thread nD τ).loc main_arg5)

/-! ## The arrays the operations before the call write -/

/-- The predecessor array is the shift of the tokens. -/
theorem V_prev (c : Dev nD) : (V m c main_v10 : Tok.Idx → EReal) = shift (argX m c) := by
  have e : (V m c main_v10 : Tok.Idx → EReal) = concatenate S8x2048x1024 1
      [⟨S8x1x1024, broadcastInDim S8x1x1024 ![] bcast_S_S8x1x1024 (constant (F := Ideal) S_ .f32 0x00000000#32)⟩,
       ⟨S8x2047x1024, extractStridedSlice S8x2047x1024 ![0, 0, 0] (argX m c) slices_S8x2048x1024_S8x2047x1024_0_0_0⟩]
      concatenates_S8x1x1024_S8x2047x1024_S8x2048x1024_d1 := by
    dsimp only [Gen.V, Gen.hostOps0]; after_results <;> rfl
  rw [e]
  exact concat_eq_shift _ _ _ _

/-- A weight row as [1, 1024], at (0, c), is the weight at c. -/
theorem V_rowR (c : Dev nD) (k : Fin 1024) : (V m c main_v0 : S1x1024.Idx → EReal) (ix2 (0 : Fin 1) k) = argMr m c (ix1 k) := by
  have e : (V m c main_v0 : S1x1024.Idx → EReal) = shapeCast S1x1024 (argMr m c) shapeCasts_S1024_S1x1024 := by
    dsimp only [Gen.V, Gen.hostOps0]; after_results <;> rfl
  rw [e]
  exact shapeCast_a_1a_apply _ _ 0 k
theorem V_rowK (c : Dev nD) (k : Fin 1024) : (V m c main_v1 : S1x1024.Idx → EReal) (ix2 (0 : Fin 1) k) = argMk m c (ix1 k) := by
  have e : (V m c main_v1 : S1x1024.Idx → EReal) = shapeCast S1x1024 (argMk m c) shapeCasts_S1024_S1x1024 := by
    dsimp only [Gen.V, Gen.hostOps0]; after_results <;> rfl
  rw [e]
  exact shapeCast_a_1a_apply _ _ 0 k

/-- A matrix transposed (and rounded to the narrower format, the identity here), at (c, d), is the matrix at (d, c). -/
theorem V_matR (c : Dev nD) (k d : Fin 1024) : (V m c main_v3 : S1024x1024.Idx → EReal) (ix2 k d) = argWr m c (ix2 d k) := by
  have e : (V m c main_v3 : S1024x1024.Idx → EReal) = transpose S1024x1024 [1, 0] (argWr m c) transposes_S1024x1024_S1024x1024_1_0 := by
    dsimp only [Gen.V, Gen.hostOps0]; after_results <;> rfl
  rw [e]
  exact transpose_ix2_apply _ _ k d
theorem V_matK (c : Dev nD) (k d : Fin 1024) : (V m c main_v5 : S1024x1024.Idx → EReal) (ix2 k d) = argWk m c (ix2 d k) := by
  have e : (V m c main_v5 : S1024x1024.Idx → EReal) = transpose S1024x1024 [1, 0] (argWk m c) transposes_S1024x1024_S1024x1024_1_0 := by
    dsimp only [Gen.V, Gen.hostOps0]; after_results <;> rfl
  rw [e]
  exact transpose_ix2_apply _ _ k d
theorem V_matV (c : Dev nD) (k d : Fin 1024) : (V m c main_v7 : S1024x1024.Idx → EReal) (ix2 k d) = argWv m c (ix2 d k) := by
  have e : (V m c main_v7 : S1024x1024.Idx → EReal) = transpose S1024x1024 [1, 0] (argWv m c) transposes_S1024x1024_S1024x1024_1_0 := by
    dsimp only [Gen.V, Gen.hostOps0]; after_results <;> rfl
  rw [e]
  exact transpose_ix2_apply _ _ k d

/-- The last token of each batch entry, as the operations before the call leave it. -/
theorem V_state (c : Dev nD) : (V m c main_v12 : S8x1024.Idx → EReal)
    = shapeCast S8x1024 (extractStridedSlice S8x1x1024 ![0, 2047, 0] (argX m c) slices_S8x2048x1024_S8x1x1024_0_2047_0)
        shapeCasts_S8x1x1024_S8x1024 := by
  dsimp only [Gen.V, Gen.hostOps0]; after_results <;> rfl

/-! ## Where each point's blocks lie -/

/-- The result's block index at a point: a batch entry, a quarter of the time axis, the whole channel axis. -/
theorem out_idx : ∀ t : Fin cfg0.N, win0_7.index t (0 : Fin 3) < 8 ∧ win0_7.index t (1 : Fin 3) < 4 ∧ win0_7.index t (2 : Fin 3) = 0 :=
  (by decide +kernel : ∀ t : Fin grid0.N, _)

/-- The tokens' and the predecessors' blocks move with the result's. -/
theorem in_idx : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = win0_7.index t (1 : Fin 3)
    ∧ win0_1.index t (2 : Fin 3) = 0 :=
  (by decide +kernel : ∀ t : Fin grid0.N, _)

/-- The weight rows and the matrices are handed over whole at every point. -/
theorem whole_idx : ∀ t : Fin cfg0.N,
    win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every (batch entry, quarter) is some point's block. -/
theorem onto_idx : ∀ (q0 : Fin 8) (q1 : Fin 4), ∃ t : Fin cfg0.N, win0_7.index t = ![q0.val, q1.val, 0] :=
  (by decide +kernel : ∀ (q0 : Fin 8) (q1 : Fin 4), ∃ t : Fin grid0.N, win0_7.index t = ![q0.val, q1.val, 0])

/-- The batch entry of a point. -/
def batchOf (t : Fin cfg0.N) : Fin 8 := ⟨win0_7.index t (0 : Fin 3), (out_idx t).1⟩
/-- The time of row r of a point's block. -/
def timeOf (t : Fin cfg0.N) (r : Fin 512) : Fin 2048 :=
  ⟨win0_7.index t (1 : Fin 3) * 512 + r.val, by have h := (out_idx t).2.1; have hr := r.isLt; omega⟩

/-! ## The blocks read at coordinates -/

theorem blk_x (c : Dev nD) (t : Fin cfg0.N) (r : Fin 512) (k : Fin 1024) :
    (iblk m c 0 t : Vec Ideal S1x512x1024 .f32) (ix3 (0 : Fin 1) r k) = argX m c (ix3 (batchOf t) (timeOf t r) k) := by
  obtain ⟨e0, e1, e2, -⟩ := in_idx t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = win0_7.index t (0 : Fin 3); omega
  | ⟨1, _⟩ => show win0_0.index t (1 : Fin 3) * 512 + 1 * r.val = win0_7.index t (1 : Fin 3) * 512 + r.val; omega
  | ⟨2, _⟩ => show win0_0.index t (2 : Fin 3) * 1024 + 1 * k.val = k.val; omega

theorem blk_p (c : Dev nD) (t : Fin cfg0.N) (r : Fin 512) (k : Fin 1024) :
    (iblk m c 1 t : Vec Ideal S1x512x1024 .f32) (ix3 (0 : Fin 1) r k) = shift (argX m c) (ix3 (batchOf t) (timeOf t r) k) := by
  obtain ⟨-, -, -, e0, e1, e2⟩ := in_idx t
  unfold iblk
  rw [View.read_apply]
  show V m c main_v10 _ = _
  rw [V_prev]
  refine congrArg _ (funext fun a => Fin.ext ?_)
  match a with
  | ⟨0, _⟩ => show win0_1.index t (0 : Fin 3) * 1 + 1 * 0 = win0_7.index t (0 : Fin 3); omega
  | ⟨1, _⟩ => show win0_1.index t (1 : Fin 3) * 512 + 1 * r.val = win0_7.index t (1 : Fin 3) * 512 + r.val; omega
  | ⟨2, _⟩ => show win0_1.index t (2 : Fin 3) * 1024 + 1 * k.val = k.val; omega

theorem blk_mr (c : Dev nD) (t : Fin cfg0.N) (k : Fin 1024) :
    (iblk m c 2 t : Vec Ideal S1x1024 .f32) (ix2 (0 : Fin 1) k) = argMr m c (ix1 k) := by
  obtain ⟨e0, e1, -⟩ := whole_idx t
  unfold iblk
  rw [View.read_apply]
  show V m c main_v0 _ = _
  refine Eq.trans (congrArg _ (funext fun a => Fin.ext ?_)) (V_rowR m c k)
  match a with
  | ⟨0, _⟩ => show win0_2.index t (0 : Fin 2) * 1 + 1 * 0 = 0; omega
  | ⟨1, _⟩ => show win0_2.index t (1 : Fin 2) * 1024 + 1 * k.val = k.val; omega

theorem blk_mk (c : Dev nD) (t : Fin cfg0.N) (k : Fin 1024) :
    (iblk m c 3 t : Vec Ideal S1x1024 .f32) (ix2 (0 : Fin 1) k) = argMk m c (ix1 k) := by
  obtain ⟨-, -, e0, e1, -⟩ := whole_idx t
  unfold iblk
  rw [View.read_apply]
  show V m c main_v1 _ = _
  refine Eq.trans (congrArg _ (funext fun a => Fin.ext ?_)) (V_rowK m c k)
  match a with
  | ⟨0, _⟩ => show win0_3.index t (0 : Fin 2) * 1 + 1 * 0 = 0; omega
  | ⟨1, _⟩ => show win0_3.index t (1 : Fin 2) * 1024 + 1 * k.val = k.val; omega

theorem blk_wr (c : Dev nD) (t : Fin cfg0.N) (k d : Fin 1024) :
    (iblk m c 4 t : Vec Ideal S1024x1024 .bf16) (ix2 k d) = argWr m c (ix2 d k) := by
  obtain ⟨-, -, -, -, e0, e1, -⟩ := whole_idx t
  unfold iblk
  rw [View.read_apply]
  show V m c main_v3 _ = _
  refine Eq.trans (congrArg _ (funext fun a => Fin.ext ?_)) (V_matR m c k d)
  match a with
  | ⟨0, _⟩ => show win0_4.index t (0 : Fin 2) * 1024 + 1 * k.val = k.val; omega
  | ⟨1, _⟩ => show win0_4.index t (1 : Fin 2) * 1024 + 1 * d.val = d.val; omega

theorem blk_wk (c : Dev nD) (t : Fin cfg0.N) (k d : Fin 1024) :
    (iblk m c 5 t : Vec Ideal S1024x1024 .bf16) (ix2 k d) = argWk m c (ix2 d k) := by
  obtain ⟨-, -, -, -, -, -, e0, e1, -⟩ := whole_idx t
  unfold iblk
  rw [View.read_apply]
  show V m c main_v5 _ = _
  refine Eq.trans (congrArg _ (funext fun a => Fin.ext ?_)) (V_matK m c k d)
  match a with
  | ⟨0, _⟩ => show win0_5.index t (0 : Fin 2) * 1024 + 1 * k.val = k.val; omega
  | ⟨1, _⟩ => show win0_5.index t (1 : Fin 2) * 1024 + 1 * d.val = d.val; omega

theorem blk_wv (c : Dev nD) (t : Fin cfg0.N) (k d : Fin 1024) :
    (iblk m c 6 t : Vec Ideal S1024x1024 .bf16) (ix2 k d) = argWv m c (ix2 d k) := by
  obtain ⟨-, -, -, -, -, -, -, -, e0, e1⟩ := whole_idx t
  unfold iblk
  rw [View.read_apply]
  show V m c main_v7 _ = _
  refine Eq.trans (congrArg _ (funext fun a => Fin.ext ?_)) (V_matV m c k d)
  match a with
  | ⟨0, _⟩ => show win0_6.index t (0 : Fin 2) * 1024 + 1 * k.val = k.val; omega
  | ⟨1, _⟩ => show win0_6.index t (1 : Fin 2) * 1024 + 1 * d.val = d.val; omega

/-- Entry (u, r, d) of a point's result block sits in the array at (batch entry, time of row r, d). -/
theorem emb_out (t : Fin cfg0.N) (u : Fin 1) (r : Fin 512) (d : Fin 1024) :
    ((cfg0.win 7).blk t).view.emb (ix3 u r d) = ix3 (batchOf t) (timeOf t r) d := by
  have hu : u.val = 0 := by omega
  funext a
  apply Fin.ext
  match a with
  | ⟨0, _⟩ => show win0_7.index t (0 : Fin 3) * 1 + 1 * u.val = win0_7.index t (0 : Fin 3); omega
  | ⟨1, _⟩ => show win0_7.index t (1 : Fin 3) * 512 + 1 * r.val = win0_7.index t (1 : Fin 3) * 512 + r.val; omega
  | ⟨2, _⟩ => show win0_7.index t (2 : Fin 3) * 1024 + 1 * d.val = d.val; have := (out_idx t).2.2; omega

/-! ## What a point writes back, and the whole array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The specification at the arguments on core c. -/
abbrev spec (c : Dev nD) : Tok.Idx → EReal :=
  out (argX m c) (argWr m c) (argWk m c) (argWv m c) (argMr m c) (argMk m c)

/-- WHAT POINT t WRITES BACK is its block of the specification. -/
theorem flushed_eq (c : Dev nD) (t : Fin cfg0.N) :
    (dats m 0 c).flushed 7 t = ((cfg0.win 7).blk t).view.read (Elt Ideal) (spec m c) := by
  rw [flushed7]
  unfold out0_7
  rw [View.canon_unit_zero hz3]
  simp only [View.ld_unit_zero (S := S1x512x1024) hz3, View.ld_unit_zero (S := S1x1024) hz2, View.ld_unit_zero (S := S1024x1024) hz2]
  funext y
  obtain ⟨u, r, d, rfl⟩ : ∃ (u : Fin 1) (r : Fin 512) (d : Fin 1024), y = ix3 u r d := ⟨y 0, y 1, y 2, eq_ix3 y⟩
  show k0_pay1 (F := Ideal) (iblk m c 0 t) (iblk m c 1 t) (iblk m c 2 t) (iblk m c 3 t) (iblk m c 4 t) (iblk m c 5 t) (iblk m c 6 t) (ix3 u r d)
      = spec m c (((cfg0.win 7).blk t).view.emb (ix3 u r d))
  rw [emb_out]
  exact (pay_apply (iblk m c 0 t) (iblk m c 1 t) (iblk m c 2 t) (iblk m c 3 t) (iblk m c 4 t) (iblk m c 5 t) (iblk m c 6 t) u r d).trans
    (blkOut_eq_out (iblk m c 0 t) (iblk m c 1 t) (iblk m c 2 t) (iblk m c 3 t) (iblk m c 4 t) (iblk m c 5 t) (iblk m c 6 t)
      (argX m c) (argWr m c) (argWk m c) (argWv m c) (argMr m c) (argMk m c) (batchOf t) (timeOf t)
      (blk_x m c t) (blk_p m c t) (blk_mr m c t) (blk_mk m c t) (blk_wr m c t) (blk_wk m c t) (blk_wv m c t) r d)

/-- An index is in point t's block iff each coordinate is in the block's range on its axis. -/
theorem mem_blk (t : Fin cfg0.N) (i : S8x2048x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v13).slice (win0_7.rect t)).set ↔ _
  rw [View.set_slice_whole, Rect.mem_set_unit]
  exact Iff.rfl

/-- The 32 blocks tile the array: index (b, s, d) is in the block of the point at (b, s / 512). -/
theorem cover (i : S8x2048x1024.Idx) : ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 1024 := (i 2).isLt
  obtain ⟨t, ht⟩ := onto_idx ⟨(i 0).val, h0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- THE RESULT ARRAY after the run is the specification. -/
theorem final (c : Dev nD) : (dats m 0 c).arrAt 7 cfg0.N = spec m c :=
  (dats m 0 c).arrAt_eq_of_cover 7 (spec m c) (fun t _ => flushed_eq m c t) cover

/-! ## The run, read -/

/-- The kernel's run: the first result is the specification of the arguments, the second the last token of each batch
    entry, and the arguments are unchanged. -/
theorem run : θ_run defs (onTc (τ := τ) (main (F := Ideal))) ⟨m, fun _ => 0, ρ⟩ fun r => ∀ c : Dev nD,
      r.2.mem ((c : Thread nD τ).loc main_v13) = spec m c
      ∧ r.2.mem ((c : Thread nD τ).loc main_v12)
          = shapeCast S8x1024 (extractStridedSlice S8x1x1024 ![0, 2047, 0] (argX m c) slices_S8x2048x1024_S8x1x1024_0_2047_0)
              shapeCasts_S8x1x1024_S8x1024
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post7 m r h c).trans (final m c),
      ((h c).2 main_v12 (Pipeline.mem_restRefs_of main_v12 (by decide) (by decide))).trans (V_state m c),
      kept_main_arg0 m r h c,
      kept_main_arg1 m r h c,
      kept_main_arg2 m r h c,
      kept_main_arg3 m r h c,
      kept_main_arg4 m r h c,
      kept_main_arg5 m r h c⟩)
    (run_main m ρ)

end Cert.KernelIdeal.ArrayValue

end
-- ==== Proof.FiniteInputs.lean ====
/-
  What the precondition says of the three inputs the blend reads.

  The precondition is the conjunction, input by input, of "every entry's absolute value is below +∞": an entry x
  with max(x, −x) < +∞ is neither +∞ nor −∞, so it is a real number.  Read here for the tokens and the two weight
  vectors; the matrices enter both programs in the same products and need no such fact.
-/
import proofs.«179300_j63144609185889_2_alg».proof.Pre_finite_inputs
import proofs.«179300_j63144609185889_2_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic

instance : Subsingleton S_.Idx := ⟨fun a b => funext fun d => d.elim0⟩

/-- The word 0x7F800000 (sign 0, exponent all ones, fraction 0) denotes +∞. -/
theorem infW : Ideal.ofBits .f32 0x7F800000#32 = ⊤ := by
  simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = r := by
  rw [infW] at h
  induction x using EReal.rec with
  | bot => simp [Ideal.cmp] at h
  | coe r => exact ⟨r, rfl⟩
  | top => simp [Ideal.cmp] at h

/-- One conjunct of the precondition: if all entries of X have absolute value below +∞, every entry of X is real. -/
theorem all_real {s : Shape} {axes : List (Fin s.rank)} (X : FVec Ideal s .f32)
    (hb : S_.BroadcastsInDim s (![] : Fin 0 → Fin s.rank)) (hr : s.ReducesTo axes S_) (hu : 0 < S_.numel)
    (h : Host.reduce IntOp.andi (cmpf .olt (Host.absf X) (broadcastInDim s ![] hb (constant (F := Ideal) S_ .f32 0x7F800000#32)))
      (constantI S_ 1 1#1) hr hu ValueIdx.ix0 = 1#1) (i : s.Idx) : ∃ r : ℝ, X i = r :=
  real_of_abs_lt (X i) (Host.reduce_andi_all _ _ hr hu ValueIdx.ix0 h i)

/-- The precondition gives: the tokens and both weight vectors hold real numbers only. -/
theorem reals_of_pre (x0 : FVec Ideal S8x2048x1024 .f32) (x1 x2 x3 : FVec Ideal S1024x1024 .f32) (x4 x5 : FVec Ideal S1024 .f32)
    (h : fn (F := Ideal) x0 x1 x2 x3 x4 x5 = fun _ => 1#1) :
    (∀ i, ∃ r : ℝ, x0 i = r) ∧ (∀ i, ∃ r : ℝ, x4 i = r) ∧ (∀ i, ∃ r : ℝ, x5 i = r) := by
  have h0 := congrFun h ValueIdx.ix0
  dsimp only [fn, fn_part1] at h0
  obtain ⟨h0, k5⟩ := IntOp.andi_eq_one.1 h0
  obtain ⟨h0, k4⟩ := IntOp.andi_eq_one.1 h0
  obtain ⟨h0, -⟩ := IntOp.andi_eq_one.1 h0
  obtain ⟨h0, -⟩ := IntOp.andi_eq_one.1 h0
  obtain ⟨k0, -⟩ := IntOp.andi_eq_one.1 h0
  exact ⟨all_real x0 _ _ _ k0, all_real x4 _ _ _ k4, all_real x5 _ _ _ k5⟩

end Cert.Pre_finite_inputs.Finite

end
-- ==== Proof.lean ====
/-
  The kernel and its reference compute one function: the channel-mix layer.

  Both programs take tokens x [8, 2048, 1024], three layer matrices Wr, Wk, Wv [1024, 1024] (output channel, input
  channel) and two blend weight vectors μr, μk [1024], and return the layer's result together with the last token of
  each batch entry.  The kernel forms the predecessor array, the transposed matrices and the weight rows before its
  one call, blends each token with its predecessor as p + μ·(x − p), and runs three matrix products per block of 512
  tokens; the reference blends as μ·x + (1 − μ)·p and contracts over the whole arrays.  On the extended reals
  a change of float format is the identity and a matrix product into a zero accumulator is the plain sum, so both are

      out[b,t,d] = σ(Σ_c zr[b,t,c]·Wr[d,c]) · Σ_e (max(Σ_c zk[b,t,c]·Wk[e,c], 0))² · Wv[d,e]

  once the two spellings of the blend are identified, which is a law of the real numbers and uses the precondition
  that the tokens and the blend weights are finite.  The second result is the same slice of x in both programs.
  The frames are the generated ones; the idealization rewrote nothing, so nothing is owed for it.
-/
import proofs.«179300_j63144609185889_2_alg».proof.Defs
import proofs.«179300_j63144609185889_2_alg».proof.Proof.Gen.Kernel
import proofs.«179300_j63144609185889_2_alg».proof.Proof.Gen.Kernel.Frame
import proofs.«179300_j63144609185889_2_alg».proof.Proof.Gen.KernelIdeal
import proofs.«179300_j63144609185889_2_alg».proof.Proof.Gen.KernelIdeal.Frame
import proofs.«179300_j63144609185889_2_alg».proof.Proof.Gen.ReferenceIdeal
import proofs.«179300_j63144609185889_2_alg».proof.Proof.Gen.Pre_finite_inputs
import proofs.«179300_j63144609185889_2_alg».proof.Proof.Gen.KernelIdeal.Value
import proofs.«179300_j63144609185889_2_alg».proof.Proof.Gen.ReferenceIdeal.Run
import proofs.«179300_j63144609185889_2_alg».proof.Proof.Gen.ReferenceIdeal.Read
import proofs.«179300_j63144609185889_2_alg».proof.Proof.ChannelMix
import proofs.«179300_j63144609185889_2_alg».proof.Proof.RefValue
import proofs.«179300_j63144609185889_2_alg».proof.Proof.ArrayValue
import proofs.«179300_j63144609185889_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the six arguments, with finite inputs, both programs end with the layer's result and with
    the last token of each batch entry. -/
theorem algebraic : Cert.algebraic_KernelIdeal_ReferenceIdeal := by
  intro m ρ m' ρ' hpre hagree
  refine ⟨fun c => Cert.KernelIdeal.ArrayValue.spec m c, _, Cert.KernelIdeal.ArrayValue.run m ρ, ?_⟩
  refine (θ_run Cert.ReferenceIdeal.defs _ _).mono (fun _ h c => ⟨?_, ?_, (h c).2.2⟩)
    (Cert.ReferenceIdeal.Value.run (F := Ideal) m' ρ')
  · obtain ⟨hx, hr, hk⟩ := Cert.Pre_finite_inputs.Finite.reals_of_pre _ _ _ _ _ _ (hpre c)
    refine (h c).1.trans ((Cert.ReferenceIdeal.Read.val_main_v32_eq _ _ _ _ _ _).trans ?_)
    rw [(hagree c).1, (hagree c).2.1, (hagree c).2.2.1, (hagree c).2.2.2.1, (hagree c).2.2.2.2.1, (hagree c).2.2.2.2.2]
    exact Cert.ReferenceIdeal.RefValue.result_eq _ _ _ _ _ _ hx hr hk
  · refine (h c).2.1.trans ?_
    rw [(hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
